-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S500000x128 .f32) (main_arg1 : FVec F S500000 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  main_v8
-- ==== Kernel.lean ====
abbrev S500000x128 : Shape := ⟨2, ![500000, 128]⟩
abbrev S500000 : Shape := ⟨1, ![500000]⟩
abbrev S500000x1 : Shape := ⟨2, ![500000, 1]⟩
abbrev S1x1 : Shape := ⟨2, ![1, 1]⟩
abbrev S10000x128 : Shape := ⟨2, ![10000, 128]⟩
abbrev S10000x1 : Shape := ⟨2, ![10000, 1]⟩
abbrev S10000 : Shape := ⟨1, ![10000]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S500000, .f32⟩
  | .hbm, ⟨2, _⟩ => ⟨S500000x1, .f32⟩
  | .hbm, ⟨3, _⟩ => ⟨S1x1, .f32⟩
  | .hbm, ⟨4, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S1x1, .f32⟩
  | .local _ .vmem, ⟨5, _⟩ => ⟨S1x1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v17 : BitVec 1 := Scalar.cmpi .eq arg0 c49_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S500000_S500000x1 : S500000.ShapeCasts S500000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  reduces_S10000x128_S10000 : S10000x128.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S500000x128 : Shape := ⟨2, ![500000, 128]⟩
abbrev S500000 : Shape := ⟨1, ![500000]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .f32⟩
  | .hbm, ⟨2, _⟩ => ⟨S500000x128, .f32⟩
  | .hbm, ⟨3, _⟩ => ⟨S_, .f32⟩
  | .hbm, ⟨4, _⟩ => ⟨S500000, .f32⟩
  | .hbm, ⟨5, _⟩ => ⟨S500000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  reducesTo_S500000_S_d0 : S500000.ReducesTo [0] S_

variable [Facts₀]

class Facts : Prop extends Facts₀ where

variable [Facts]
-- ==== Proof.Pieces.lean ====
/-
  What one run of the kernel body leaves behind, as values.

  The body keeps a one-entry accumulator in scratch memory. Writing `step x0 x1 a` for the accumulate step (the
  generated payload `k0_pay2`: `a` plus the weighted sum of the squared row norms of the block `x0`, weights `x1`),
  `zero` for the one-entry zero array (`k0_pay1`) and `out a` for the final map (`k0_pay3`):
    * at the first grid point the body stores `zero`, reads it back, and leaves `step x0 x1 zero` in the accumulator;
    * at a middle point it leaves `step x0 x1 a`, where `a` is what the point before left;
    * at the last point it leaves `step x0 x1 a` in the accumulator, reads that back, and stores `out (step x0 x1 a)` in
      the output block.
  Each store covers its whole one-entry buffer, so what is read back after a store is the stored value, and the stores'
  loads read whole buffers. The statements hold for any float instance.
-/
import proofs.«114674_j31731218383095_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the accumulator ends at one accumulate step from the zero array. -/
theorem scratch_A (c : Dev nD) (i : grid0.Coords) (a1 : Memref sig .tc .vmem S10000x128 .f32) (h1 : a1.IsWhole)
    (a2 : Memref sig .tc .vmem S10000x1 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S10000x128 .f32) (x1 : Vec F S10000x1 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S10000x128) hz,
    View.ld_unit_zero (S := S10000x1) hz]

/-- A middle point: one accumulate step from what the point before left. -/
theorem scratch_B (c : Dev nD) (i : grid0.Coords) (a1 : Memref sig .tc .vmem S10000x128 .f32) (h1 : a1.IsWhole)
    (a2 : Memref sig .tc .vmem S10000x1 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S10000x128 .f32) (x1 : Vec F S10000x1 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S10000x128) hz,
    View.ld_unit_zero (S := S10000x1) hz, View.ld_unit_zero (S := S1x1) hz]

/-- The last point: the accumulator again one accumulate step further, -/
theorem scratch_C (c : Dev nD) (i : grid0.Coords) (a1 : Memref sig .tc .vmem S10000x128 .f32) (h1 : a1.IsWhole)
    (a2 : Memref sig .tc .vmem S10000x1 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S10000x128 .f32) (x1 : Vec F S10000x1 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S10000x128) hz,
    View.ld_unit_zero (S := S10000x1) hz, View.ld_unit_zero (S := S1x1) hz]

/-- and the output block at the final map of that accumulator. -/
theorem out_C (c : Dev nD) (i : grid0.Coords) (a1 : Memref sig .tc .vmem S10000x128 .f32) (h1 : a1.IsWhole)
    (a2 : Memref sig .tc .vmem S10000x1 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S10000x128 .f32) (x1 : Vec F S10000x1 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S10000x128) hz,
    View.ld_unit_zero (S := S10000x1) hz, View.ld_unit_zero (S := S1x1) hz]

end Cert.KernelIdeal.Pieces

end
-- ==== Proof.Spec.lean ====
/-
  The common value of the two programs, as mathematics over the extended reals.

  For an array `Z` of 500000 rows of 128 entries and a weight vector `R` of 500000 entries, row `j` contributes
  its weighted squared norm `R j * ∑ k, Z j k * Z j k`; the total `s` is the sum of the contributions over all rows,
  and the result is `1 - exp (-(exp s))`.

  The rows are cut into 50 consecutive blocks of 10000: row `10000 * t + p` is row `p` of block `t`. A sum over all
  rows is the sum over the blocks of the sums inside each block — a regrouping of a finite sum, valid in every
  commutative additive monoid, so no entry needs to be a real number. The running total after block `n` is the sum
  of the block sums of blocks `0 … n`; after the last block it is the total.
-/
import Idealize.ShloMosaic.PureOps.Ideal.Laws
import Idealize.ShloMosaic.Lib.ValueIdx

noncomputable section

namespace Cert.RowNorms

open Idealize.ShloMosaic Idealize.ShloMosaic.ValueIdx

/-- The shape of `Z`, of `R`, and of a scalar. -/
abbrev SZ : Shape := ⟨2, ![500000, 128]⟩
abbrev SR : Shape := ⟨1, ![500000]⟩
abbrev S0 : Shape := ⟨0, ![]⟩

/-! ## Regrouping a sum over consecutive blocks -/

/-- A sum over the first `m * n` naturals is the sum over `m` blocks of the sums over the `n` members of each block,
    member `b` of block `a` being `n * a + b`. -/
theorem sum_range_blocks {M : Type} [AddCommMonoid M] (n : ℕ) (f : ℕ → M) : ∀ m : ℕ,
    ∑ j ∈ Finset.range (m * n), f j = ∑ a ∈ Finset.range m, ∑ b ∈ Finset.range n, f (n * a + b)
  | 0 => by rw [Nat.zero_mul, Finset.sum_range_zero, Finset.sum_range_zero]
  | m + 1 => by
    rw [Nat.succ_mul, Finset.sum_range_add, sum_range_blocks n f m, Finset.sum_range_succ, Nat.mul_comm m n]

/-! ## The value -/

variable (Z : SZ.Idx → EReal) (R : SR.Idx → EReal)

/-- Row `j`'s weighted squared norm. -/
def wnorm (j : Fin 500000) : EReal := R (ix1 j) * ∑ k : Fin 128, Z (ix2 j k) * Z (ix2 j k)

/-- The same for a natural number, zero past the last row. -/
def wnat (j : ℕ) : EReal := if h : j < 500000 then wnorm Z R ⟨j, h⟩ else 0

theorem wnat_of_lt (j : ℕ) (h : j < 500000) : wnat Z R j = wnorm Z R ⟨j, h⟩ := dif_pos h

/-- The sum of all rows' weighted squared norms. -/
def total : EReal := ∑ j : Fin 500000, wnorm Z R j

/-- Block `t`'s sum: rows `10000 * t … 10000 * t + 9999`. -/
def blockSum (t : ℕ) : EReal := ∑ p ∈ Finset.range 10000, wnat Z R (10000 * t + p)

/-- The running total after block `n`. -/
def partialSum (n : ℕ) : EReal := ∑ t ∈ Finset.range (n + 1), blockSum Z R t

theorem partialSum_zero : partialSum Z R 0 = blockSum Z R 0 := Finset.sum_range_one _

theorem partialSum_succ (n : ℕ) : partialSum Z R (n + 1) = partialSum Z R n + blockSum Z R (n + 1) :=
  Finset.sum_range_succ _ _

/-- After the fiftieth block the running total is the total. -/
theorem partialSum_last : partialSum Z R 49 = total Z R := by
  unfold partialSum total blockSum
  rw [Finset.sum_fin_eq_sum_range]
  exact (sum_range_blocks 10000 (wnat Z R) 50).symm

/-- A block's sum from its rows' contributions listed by position in the block. -/
theorem blockSum_eq (t : ℕ) (ht : t < 50) (g : Fin 10000 → EReal)
    (hg : ∀ p : Fin 10000, g p = wnorm Z R ⟨10000 * t + p.val, by have := p.isLt; omega⟩) :
    ∑ p : Fin 10000, g p = blockSum Z R t := by
  unfold blockSum
  rw [← Fin.sum_univ_eq_sum_range (fun p => wnat Z R (10000 * t + p)) 10000]
  refine Finset.sum_congr rfl fun p _ => ?_
  rw [hg p, wnat_of_lt]

/-- The result as a function of the total: `1 - exp (-(exp s))`, the unit being the float one. -/
def link (s : EReal) : EReal := Ideal.ofBits .f32 0x3F800000#32 - Ideal.exp (-(Ideal.exp s))

/-- The scalar both programs end with. -/
def result : S0.Idx → EReal := fun _ => link (total Z R)

end Cert.RowNorms

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowOps.lean ====
/-
  Reductions along the last axis, at the ideal values, read at an index given by coordinates. In an `[R, C]` matrix the
  sum and the maximum along the second axis at row `p` are the sum and the fold of `max` over `k : Fin C` of the entries
  `(p, k)` — the reduced index `p` with the coordinate `k` inserted on the dropped axis is `(p, k)` (`lift_row`,
  `rowSum_apply`, `rowMax_apply`: a kernel's `vector.multi_reduction`). In an `[A, B, C]` array the host's maximum along
  the last axis at `(a, b)` is the fold of `max`, from the initial value, over `k : Fin C` of the entries `(a, b, k)`
  (`lift_last3`, `hostMax_last3`: a `stablehlo.reduce` with a maximum body). All are stated for any extents.
-/
import Idealize.ShloMosaic.PureOps.Ideal.Laws
import Idealize.ShloMosaic.Lib.ValueIdx

noncomputable section

namespace Cert.RowOps

open Idealize.ShloMosaic Idealize.ShloMosaic.ValueIdx

/-- Row `p` with the column `k` inserted is the index `(p, k)`. -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- In a rank-3 array, `(a, b)` with the coordinate `k` inserted on the last axis is `(a, b, k)`. -/
theorem lift_last3 {A B C : ℕ} (h : (⟨3, ![A, B, C]⟩ : Shape).Reduces [2] ⟨2, ![A, B]⟩) (a : Fin A) (b : Fin B) (k : Fin C) :
    h.lift (ix2 a b) k = ix3 a b k := by
  funext c
  apply Fin.ext
  match c with
  | ⟨0, _⟩ => rfl
  | ⟨1, _⟩ => rfl
  | ⟨2, _⟩ => rfl

/-- The host's maximum along the last axis of a rank-3 array, at `(a, b)`: the fold of `max`, from the initial value, over
    `k` of the entries `(a, b, k)`. -/
theorem hostMax_last3 {A B C : ℕ} (x : (⟨3, ![A, B, C]⟩ : Shape).Idx → EReal) (init : (⟨0, ![]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (a : Fin A) (b : Fin B) :
    Host.reduce (FloatOps.maximumf (F := Ideal) (φ := .f32)) x init h' hu (ix2 a b)
      = (Finset.univ : Finset (Fin C)).fold max (init (Shape.Idx.first hu)) (fun k => x (ix3 a b k)) := by
  refine (Host.reduce_eq_fold_single (FloatOps.maximumf (F := Ideal) (φ := .f32)) x init h' h hu (ix2 a b)).trans ?_
  exact congrArg (Finset.fold max (init (Shape.Idx.first hu)) · (Finset.univ : Finset (Fin C)))
    (funext fun k => congrArg x (lift_last3 h a b k))

/-- A sum along the second axis, at row `p`: the sum over the columns of the entries of that row. -/
theorem rowSum_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.add.neutral .f32 hφ)
    (p : Fin R) :
    multiReduction .add [1] ⟨1, ![R]⟩ src acc h hφ hacc (ix1 p) = ∑ k : Fin C, src (ix2 p k) := by
  refine (Ideal.multiReduction_add_single src acc h hφ hacc (ix1 p)).trans ?_
  exact Finset.sum_congr rfl fun k _ => congrArg src (lift_row h p k)

/-- A maximum along the second axis, at row `p`: the fold of `max`, from the accumulator's value, over the columns. -/
theorem rowMax_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.maximumf.neutral .f32 hφ)
    (p : Fin R) :
    multiReduction .maximumf [1] ⟨1, ![R]⟩ src acc h hφ hacc (ix1 p)
      = (Finset.univ : Finset (Fin C)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin C)))
    (funext fun k => congrArg src (lift_row h p k))

end Cert.RowOps

end
-- ==== Proof.LibColOps.lean ====
/-
  A sum along the FIRST axis, at the ideal values, read at an index given by coordinates. In an `[R, C]` matrix the sum
  along the first axis at column `q` is the sum over `k : Fin R` of the entries `(k, q)` — the reduced index `q` with the
  coordinate `k` inserted on the dropped axis is `(k, q)` (`lift_col`, `colSum_apply`: a kernel's
  `vector.multi_reduction <add>` over axis 0, as a `jnp.sum(axis=0)` or the second step of a two-step total sum
  lowers). Stated for any extents.
-/
import Idealize.ShloMosaic.PureOps.Ideal.Laws
import Idealize.ShloMosaic.Lib.ValueIdx

noncomputable section

namespace Cert.ColOps

open Idealize.ShloMosaic Idealize.ShloMosaic.ValueIdx

/-- Column `q` with the row `k` inserted is the index `(k, q)`. -/
theorem lift_col {R C : ℕ} (h : (⟨2, ![R, C]⟩ : Shape).Reduces [0] ⟨1, ![C]⟩) (q : Fin C) (k : Fin R) :
    h.lift (ix1 q) k = ix2 k q := by
  funext c
  apply Fin.ext
  match c with
  | ⟨0, _⟩ => rfl
  | ⟨1, _⟩ => rfl

/-- A sum along the first axis, at column `q`: the sum over the rows of the entries of that column. -/
theorem colSum_apply {R C : ℕ} (src : FVec Ideal ⟨2, ![R, C]⟩ .f32) (acc : BitVec 32)
    (h : (⟨2, ![R, C]⟩ : Shape).Reduces [0] ⟨1, ![C]⟩) (hφ : FKind.Formats .f32) (hacc : acc = FKind.add.neutral .f32 hφ)
    (q : Fin C) :
    multiReduction .add [0] ⟨1, ![C]⟩ src acc h hφ hacc (ix1 q) = ∑ k : Fin R, src (ix2 k q) := by
  refine (Ideal.multiReduction_add_single src acc h hφ hacc (ix1 q)).trans ?_
  exact Finset.sum_congr rfl fun k _ => congrArg src (lift_col h q k)

end Cert.ColOps

end
-- ==== Proof.Payload.lean ====
/-
  The kernel body's arithmetic over the extended reals, read at the one entry of its one-entry arrays.

  The accumulate step adds to the accumulator `a` the sum over the 10000 rows `p` of the block of the weight
  `x1 (p, 0)` times the row's sum of squares `∑ d, x0 (p, d) * x0 (p, d)`: a sum along the lanes of the squared block, laid
  out as a column, multiplied by the weight column entry by entry, summed along the rows, and added to `a`. The sums'
  neutral start value contributes nothing. The zero array holds the extended real zero. The final map sends `v` to
  `1 - exp (0 - exp v)`, and `0 - y = -y`.
-/
import proofs.«114674_j31731218383095_2_alg».proof.Proof.Gen.KernelIdeal.Skeleton
import proofs.«114674_j31731218383095_2_alg».proof.Proof.Spec
import proofs.«114674_j31731218383095_2_alg».proof.Proof.LibColumn
import proofs.«114674_j31731218383095_2_alg».proof.Proof.LibRowOps
import proofs.«114674_j31731218383095_2_alg».proof.Proof.LibColOps
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The one index of a one-entry matrix. -/
abbrev o11 : S1x1.Idx := ix2 (0 : Fin 1) (0 : Fin 1)

/-- Row `p` of the squared block, summed along the lanes. -/
theorem rowsq_apply (x0 : FVec Ideal S10000x128 .f32) (p : Fin 10000) :
    multiReduction .add [1] S10000 (mulf x0 x0) 0x00000000#32 reduces_S10000x128_S10000 (.inl rfl) rfl (ix1 p)
      = ∑ d : Fin 128, x0 (ix2 p d) * x0 (ix2 p d) :=
  Cert.RowOps.rowSum_apply (mulf x0 x0) 0x00000000#32 reduces_S10000x128_S10000 (.inl rfl) rfl p

/-- The accumulate step at the accumulator's entry. -/
theorem step_apply (x0 : FVec Ideal S10000x128 .f32) (x1 : FVec Ideal S10000x1 .f32) (a : FVec Ideal S1x1 .f32) :
    k0_pay2 (F := Ideal) x0 x1 a o11
      = a o11 + ∑ p : Fin 10000, x1 (ix2 p (0 : Fin 1)) * ∑ d : Fin 128, x0 (ix2 p d) * x0 (ix2 p d) := by
  unfold k0_pay2
  refine (congrFun (shapeCast_self _ _) _).trans ?_
  refine (addf_apply _ _ _).trans ?_
  refine congrArg (a o11 + ·) ?_
  refine (Cert.Column.shapeCast_a_a1_apply _ _ (0 : Fin 1) (0 : Fin 1)).trans ?_
  refine (Cert.ColOps.colSum_apply _ 0x00000000#32 reduces_S10000x1_S1 (.inl rfl) rfl (0 : Fin 1)).trans ?_
  refine Finset.sum_congr rfl fun p _ => ?_
  refine (mulf_apply _ _ _).trans ?_
  refine congrArg₂ (· * ·) (congrFun (shapeCast_self x1 _) _) ?_
  refine (Cert.Column.shapeCast_a_a1_apply _ _ p (0 : Fin 1)).trans ?_
  exact rowsq_apply x0 p

/-- One accumulate step over block `t` of the arrays — the block `x0` holding rows `10000 * t + p` of `Z`, the weight
    column `x1` the entries `10000 * t + p` of `R` — adds that block's sum to the accumulator. -/
theorem step_block (Z : Cert.RowNorms.SZ.Idx → EReal) (R : Cert.RowNorms.SR.Idx → EReal) (t : ℕ) (ht : t < 50)
    (x0 : FVec Ideal S10000x128 .f32) (x1 : FVec Ideal S10000x1 .f32) (a : FVec Ideal S1x1 .f32)
    (h0 : ∀ (p : Fin 10000) (d : Fin 128),
      x0 (ix2 p d) = Z (ix2 (⟨10000 * t + p.val, by have := p.isLt; omega⟩ : Fin 500000) d))
    (h1 : ∀ p : Fin 10000,
      x1 (ix2 p (0 : Fin 1)) = R (ix1 (⟨10000 * t + p.val, by have := p.isLt; omega⟩ : Fin 500000))) :
    k0_pay2 (F := Ideal) x0 x1 a o11 = a o11 + Cert.RowNorms.blockSum Z R t := by
  refine (step_apply x0 x1 a).trans (congrArg (a o11 + ·) ?_)
  refine Cert.RowNorms.blockSum_eq Z R t ht _ fun p => ?_
  show x1 (ix2 p (0 : Fin 1)) * ∑ d : Fin 128, x0 (ix2 p d) * x0 (ix2 p d) = _
  rw [h1 p]
  unfold Cert.RowNorms.wnorm
  refine congrArg (_ * ·) (Finset.sum_congr rfl fun d _ => ?_)
  rw [h0 p d]

/-- Every index of a one-entry matrix is the one index. -/
theorem idx11 (y : S1x1.Idx) : y = o11 := by
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  rfl

/-- The zero array's entry. -/
theorem zeroArr_apply : k0_pay1 (F := Ideal) o11 = 0 := by
  unfold k0_pay1
  refine (congrFun (shapeCast_self _ _) _).trans ?_
  exact Ideal.ofBits_zero_f32

/-- The final map at the output's entry. -/
theorem out_apply (v : FVec Ideal S1x1 .f32) : k0_pay3 (F := Ideal) v o11 = Cert.RowNorms.link (v o11) := by
  unfold k0_pay3 Cert.RowNorms.link
  show Ideal.ofBits .f32 0x3F800000#32 - Ideal.exp (Ideal.ofBits .f32 0x00000000#32 - Ideal.exp (v o11)) = _
  rw [Ideal.ofBits_zero_f32, zero_sub]

end Cert.KernelIdeal.Payload

end
-- ==== Proof.KernelValue.lean ====
/-
  What the kernel's program ends with, over the extended reals: the scalar `1 - exp (-(exp s))`, `s` the sum over all
  rows `j` of `R j` times the sum of the squares of row `j` of `Z`.

  Before the region the weights `R` are laid out as a column. The region runs over 50 grid points; point `t` sees rows
  `10000 * t … 10000 * t + 9999` of `Z` and of the weight column. The one-entry accumulator holds, after point `n`, the
  sum of the block sums of blocks `0 … n` (induction on the point: the first point starts from the zero array, every later
  point adds its block's sum to what the point before left). At the last point the output block is written with the final
  map of the accumulator, which by then holds the total; that point's block is the whole one-entry result array. After the
  region the one-entry array is reshaped to a scalar.
-/
import proofs.«114674_j31731218383095_2_alg».proof.Proof.Gen.KernelIdeal.Frame
import proofs.«114674_j31731218383095_2_alg».proof.Proof.Pieces
import proofs.«114674_j31731218383095_2_alg».proof.Proof.Payload
import proofs.«114674_j31731218383095_2_alg».proof.Proof.Spec
import proofs.«114674_j31731218383095_2_alg».proof.Proof.LibColumn
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RowNormsValue

open Cert.KernelIdeal Cert.KernelIdeal.Gen Cert.KernelIdeal.Payload Cert.RowNorms

variable (m : (ℓ : Loc nD τ sig) → Buf (Elt Ideal) ℓ) (ρ : Dev nD → PrngReg)

/-- The argument arrays as launched, as plain arrays of extended reals. -/
abbrev argZ (c : Dev nD) : SZ.Idx → EReal := m ((c : Thread nD τ).loc main_arg0)
abbrev argR (c : Dev nD) : SR.Idx → EReal := m ((c : Thread nD τ).loc main_arg1)

/-- Point `t`'s blocks of the two staged arrays start at row `t`-th block, column 0. -/
theorem idx_facts : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- The weight column the region finds: `R` cast to 500000 rows of one entry. -/
theorem V_col (c : Dev nD) :
    (V m c main_v0 : S500000x1.Idx → EReal)
      = shapeCast S500000x1 (m ((c : Thread nD τ).loc main_arg1)) shapeCasts_S500000_S500000x1 := by
  show StableHlo.after hostOps0 (fun b => m (c, b)) (Proc.devRef .tc main_v0) = _
  after_results
  rfl

/-- Entry `(p, d)` of point `t`'s block of `Z` is entry `(10000 * t + p, d)` of `Z`. -/
theorem zblk_apply (c : Dev nD) (t : Fin cfg0.N) (p : Fin 10000) (d : Fin 128) (hp : 10000 * t.val + p.val < 500000) :
    (iblk m c 0 t : S10000x128.Idx → EReal) (ix2 p d) = argZ m c (ix2 (⟨10000 * t.val + p.val, hp⟩ : Fin 500000) d) := by
  unfold iblk
  rw [View.read_apply]
  show V m c main_arg0 _ = _
  rw [V_main_arg0]
  refine congrArg _ (funext fun a => Fin.ext ?_)
  match a with
  | ⟨0, _⟩ =>
    show win0_0.index t 0 * 10000 + 1 * p.val = 10000 * t.val + p.val
    rw [(idx_facts t).1]; omega
  | ⟨1, _⟩ =>
    show win0_0.index t 1 * 128 + 1 * d.val = d.val
    rw [(idx_facts t).2.1]; omega

/-- Entry `(p, 0)` of point `t`'s block of the weight column is entry `10000 * t + p` of `R`. -/
theorem rblk_apply (c : Dev nD) (t : Fin cfg0.N) (p : Fin 10000) (hp : 10000 * t.val + p.val < 500000) :
    (iblk m c 1 t : S10000x1.Idx → EReal) (ix2 p (0 : Fin 1)) = argR m c (ix1 (⟨10000 * t.val + p.val, hp⟩ : Fin 500000)) := by
  unfold iblk
  rw [View.read_apply]
  show V m c main_v0 _ = _
  rw [V_col]
  refine (congrArg _ (funext fun a => Fin.ext ?_)).trans
    (Cert.Column.shapeCast_a_a1_apply _ shapeCasts_S500000_S500000x1 (⟨10000 * t.val + p.val, hp⟩ : Fin 500000) (0 : Fin 1))
  match a with
  | ⟨0, _⟩ =>
    show win0_1.index t 0 * 10000 + 1 * p.val = 10000 * t.val + p.val
    rw [(idx_facts t).2.2.1]; omega
  | ⟨1, _⟩ =>
    show win0_1.index t 1 * 1 + 1 * 0 = 0
    rw [(idx_facts t).2.2.2]

/-- One accumulate step at point `t`, from any accumulator, adds block `t`'s sum. -/
theorem step_at (c : Dev nD) (t : Fin cfg0.N) (a : FVec Ideal S1x1 .f32) :
    k0_pay2 (F := Ideal) (iblk m c 0 t) (iblk m c 1 t) a o11 = a o11 + blockSum (argZ m c) (argR m c) t.val := by
  have hN : t.val < 50 := lt_of_lt_of_eq t.isLt (show cfg0.N = 50 from N_0)
  exact step_block (argZ m c) (argR m c) t.val hN (iblk m c 0 t) (iblk m c 1 t) a
    (fun p d => zblk_apply m c t p d (by have := p.isLt; omega))
    (fun p => rblk_apply m c t p (by have := p.isLt; omega))

/-- After point `n` the accumulator holds the sum of the block sums of blocks `0 … n`. -/
theorem acc_eq (c : Dev nD) : ∀ (n : ℕ) (h : n < cfg0.N),
    (outsAt0 m c n h).2 o11 = partialSum (argZ m c) (argR m c) n
  | 0, h => by
    rw [outsAt0_A m c ⟨0, h⟩ rfl (by dsimp only; omega)]
    dsimp only
    rw [Cert.KernelIdeal.Pieces.scratch_A]
    refine (step_at m c ⟨0, h⟩ _).trans ?_
    rw [zeroArr_apply, zero_add]
    exact (partialSum_zero _ _).symm
  | n + 1, h => by
    have hN : n + 1 < 50 := lt_of_lt_of_eq h (show cfg0.N = 50 from N_0)
    have h0 : ¬(⟨n + 1, h⟩ : Fin cfg0.N).val % 50 = 0 := by dsimp only; omega
    have ih := acc_eq c n (Nat.lt_of_succ_lt h)
    by_cases h1 : (⟨n + 1, h⟩ : Fin cfg0.N).val % 50 = 49
    · rw [outsAt0_C m c ⟨n + 1, h⟩ h0 h1]
      dsimp only
      rw [Cert.KernelIdeal.Pieces.scratch_C]
      refine (step_at m c ⟨n + 1, h⟩ _).trans ?_
      rw [partialSum_succ]
      exact congrArg (· + blockSum (argZ m c) (argR m c) (n + 1)) ih
    · rw [outsAt0_B m c ⟨n + 1, h⟩ h0 h1]
      dsimp only
      rw [Cert.KernelIdeal.Pieces.scratch_B]
      refine (step_at m c ⟨n + 1, h⟩ _).trans ?_
      rw [partialSum_succ]
      exact congrArg (· + blockSum (argZ m c) (argR m c) (n + 1)) ih

/-- At the last point the output block holds the final map of the total. -/
theorem out_last (c : Dev nD) (t : Fin cfg0.N) (h49 : t.val % 50 = 49) :
    (outsAt0 m c t.val t.isLt).1 = fun _ => link (total (argZ m c) (argR m c)) := by
  have hN : t.val < 50 := lt_of_lt_of_eq t.isLt (show cfg0.N = 50 from N_0)
  have h0 : ¬t.val % 50 = 0 := by omega
  have ht : t.val = 49 := by omega
  have e : (outsAt0 m c t.val t.isLt).1 = k0_pay3 (outsAt0 m c t.val t.isLt).2 := by
    rw [outsAt0_C m c t h0 h49]
    dsimp only
    rw [Cert.KernelIdeal.Pieces.out_C, Cert.KernelIdeal.Pieces.scratch_C]
  funext y
  rw [e, idx11 y, out_apply, acc_eq m c t.val t.isLt, ht, partialSum_last]

/-- The one-entry result array of the region: the final map of the total. -/
abbrev regionResult (c : Dev nD) : Buf (Elt Ideal) ((c : Thread nD τ).loc main_v1) :=
  fun _ => link (total (argZ m c) (argR m c))

/-- The last grid point. -/
abbrev tLast : Fin cfg0.N := ⟨49, by rw [show cfg0.N = 50 from N_0]; decide⟩

/-- The one write-back, at the last point, writes the final map of the total. -/
theorem flushed_eq (c : Dev nD) (t : Fin cfg0.N) (hf : (cfg0.win 2).flush t = true) :
    (dats m 0 c).flushed 2 t = ((cfg0.win 2).blk t).view.read (Elt Ideal) (regionResult m c) := by
  have h49 : t.val % 50 = 49 := (flush0_2 t).mp hf
  show (cfg0.win 2).cut (grid0.coords t) ((dats m 0 c).after 2 t) = _
  rw [after0_2, out_last m c t h49]
  rfl

/-- The last point's block is the whole one-entry array, so the array ends holding that value. -/
theorem final_o (c : Dev nD) : (dats m 0 c).arrAt 2 cfg0.N = regionResult m c :=
  (dats m 0 c).arrAt_eq_of_cover 2 (regionResult m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- The reshape after the region: the scalar result reads the one-entry array's entry. -/
theorem tail_eq (c : Dev nD) :
    (Pipeline.afterTail₀ cfgs (dats m) 0 (V0 m) [hostOps1] c main_v2 : S_.Idx → EReal)
      = result (argZ m c) (argR m c) := by
  unfold Pipeline.afterTail₀
  show StableHlo.after hostOps1 _ (Proc.devRef .tc main_v2) = _
  after_results
  funext i
  have e : Pipeline.withArrays (cfgs 0).spec c (V0 m c) (fun w => (dats m 0 c).arrAt w (cfgs 0).N)
      (Proc.devRef .tc main_v1) = regionResult m c :=
    (Pipeline.withArrays_arr spec0 launch0.win.arr_inj c _ _ 2).trans (final_o m c)
  show shapeCast S_ (Pipeline.withArrays (cfgs 0).spec c (V0 m c) (fun w => (dats m 0 c).arrAt w (cfgs 0).N)
      (Proc.devRef .tc main_v1)) shapeCasts_S1x1_S_ i = _
  rw [e]
  rfl

/-- The kernel's program, run: its scalar result is the common value of the launched arguments, which end unchanged. -/
theorem run : θ_run defs (onTc (τ := τ) (main (F := Ideal))) ⟨m, fun _ => 0, ρ⟩ fun r => ∀ c : Dev nD,
      r.2.mem ((c.tc : Thread nD τ).loc main_v2) = result (argZ m c) (argR m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.RowNormsValue

end
-- ==== Proof.LibIdx1.lean ====
/-
  A sum over the indices of a rank-one array is the sum over its one coordinate (the rank-one companion of the
  library's `sum_idx2`).
-/
import Idealize.ShloMosaic.Lib.ValueIdx

noncomputable section

open scoped BigOperators

namespace Cert.Idx1

open Idealize.ShloMosaic Idealize.ShloMosaic.ValueIdx

/-- A rank-one index is its one coordinate. -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Idx1

end
-- ==== Proof.RefValue.lean ====
/-
  What the reference program ends with, over the extended reals: the same scalar `1 - exp (-(exp s))`.

  The reference squares `Z` entry by entry, sums each row along its 128 columns from zero, multiplies by `R` entry by
  entry, sums the 500000 products from zero, and applies `exp`, negation, `exp`, and subtraction from one. A sum
  started from the float zero is the sum; row `j`'s product is its weighted squared norm.
-/
import proofs.«114674_j31731218383095_2_alg».proof.Proof.Gen.ReferenceIdeal.Read
import proofs.«114674_j31731218383095_2_alg».proof.Proof.Spec
import proofs.«114674_j31731218383095_2_alg».proof.Proof.LibIdx1
import Idealize.ShloMosaic.Lib.ValueIdx
import Idealize.ShloMosaic.PureOps.Ideal.Laws

noncomputable section

open Idealize.ShloMosaic Idealize.ShloMosaic.ValueIdx

namespace Cert.ReferenceIdeal.RowNormsValue

open Cert.ReferenceIdeal Cert.ReferenceIdeal.Gen Cert.ReferenceIdeal.Read Cert.RowNorms

/-- Row `j` with the column `k` inserted is the entry `(j, k)`. -/
theorem idx_row (j : Fin 500000) (k : Fin 128) : idx_main_v1 (ix1 j) k = ix2 j k :=
  funext fun a => Fin.ext (by match a with | ⟨0, _⟩ => rfl | ⟨1, _⟩ => rfl)

/-- The reference's product at row `j` is the row's weighted squared norm. -/
theorem prod_apply (Z : SZ.Idx → EReal) (R : SR.Idx → EReal) (j : Fin 500000) :
    val_main_v2 (F := Ideal) Z R (ix1 j) = wnorm Z R j := by
  rw [val_main_v2_apply, val_main_v1_apply]
  simp only [val_main_v0_apply, val_main_cst_apply, idx_row, Ideal.mulf_def, Ideal.ofBits_def, Ideal.ofBits_zero_f32,
    zero_add]
  rfl

/-- The reference's result is the common scalar. -/
theorem ref_eq (Z : SZ.Idx → EReal) (R : SR.Idx → EReal) : val_main_v7 (F := Ideal) Z R = result Z R := by
  funext i
  rw [val_main_v7_apply, val_main_v6_apply, val_main_v5_apply, val_main_v4_apply, val_main_v3_apply,
    Cert.Idx1.sum_idx1]
  simp only [prod_apply, val_main_cst_1_apply, val_main_cst_0_apply, Ideal.subf_def, Ideal.hostUnary_exp_def,
    Ideal.hostNegf_def, Ideal.negf_def, Ideal.ofBits_def, Ideal.ofBits_zero_f32, zero_add]
  rfl

/-- The reference run's result term, at argument arrays that are `Z` and `R`, is the common scalar. -/
theorem run_term_eq (x0 : (⟨S500000x128, .f32⟩ : BufTy).Contents (Elt Ideal)) (x1 : (⟨S500000, .f32⟩ : BufTy).Contents (Elt Ideal))
    (Z : SZ.Idx → EReal) (R : SR.Idx → EReal) (hZ : x0 = Z) (hR : x1 = R) :
    (subf (constant (F := Ideal) S_ .f32 0x3F800000#32) (Host.exp (Host.negf (Host.exp (Host.reduceAdd (mulf (x1) (Host.reduceAdd (mulf (x0) (x0)) (constant (F := Ideal) S_ .f32 0x00000000#32) reducesTo_S500000x128_S500000_d1 h_S_)) (constant (F := Ideal) S_ .f32 0x00000000#32) reducesTo_S500000_S_d0 h_S_)))) : S_.Idx → EReal)
      = result Z R := by
  subst hZ hR
  rw [val_main_v7_eq]
  exact ref_eq _ _

end Cert.ReferenceIdeal.RowNormsValue

end
-- ==== Proof.lean ====
/-
  The kernel computes, for `Z` of 500000 rows of 128 entries and weights `R`, the scalar `1 - exp (-(exp s))` with
  `s = ∑ j, R j * ∑ k, Z j k * Z j k`, accumulating `s` block by block: 50 blocks of 10000 rows, each block's weighted
  sum of squared row norms added to a one-entry accumulator that starts at zero, the final map applied at the last block.
  The reference computes the same scalar with whole-array sums.

  Over the extended reals the two agree for every input: the row sums and the products are the same terms on both sides,
  a sum over all rows is the sum over the blocks of the sums inside each block (a regrouping of a finite sum in a
  commutative monoid), the sums' zero start values add nothing, and `0 - y = -y`. No entry has to be finite.

  The three programs run to completion with their arguments unchanged: the two kernels by their frame certificates, the
  reference by its run. The kernel's idealization rewrote no operation, so there is nothing to preserve.
-/
import proofs.«114674_j31731218383095_2_alg».proof.Defs
import proofs.«114674_j31731218383095_2_alg».proof.Proof.Gen.Kernel
import proofs.«114674_j31731218383095_2_alg».proof.Proof.Gen.Kernel.Skeleton
import proofs.«114674_j31731218383095_2_alg».proof.Proof.Gen.Kernel.Launch
import proofs.«114674_j31731218383095_2_alg».proof.Proof.Gen.Kernel.Points
import proofs.«114674_j31731218383095_2_alg».proof.Proof.Gen.Kernel.Frame
import proofs.«114674_j31731218383095_2_alg».proof.Proof.Gen.KernelIdeal
import proofs.«114674_j31731218383095_2_alg».proof.Proof.Gen.KernelIdeal.Skeleton
import proofs.«114674_j31731218383095_2_alg».proof.Proof.Gen.KernelIdeal.Launch
import proofs.«114674_j31731218383095_2_alg».proof.Proof.Gen.KernelIdeal.Points
import proofs.«114674_j31731218383095_2_alg».proof.Proof.Gen.KernelIdeal.Frame
import proofs.«114674_j31731218383095_2_alg».proof.Proof.Gen.ReferenceIdeal
import proofs.«114674_j31731218383095_2_alg».proof.Proof.Gen.ReferenceIdeal.Run
import proofs.«114674_j31731218383095_2_alg».proof.Proof.Gen.Pre_finite_inputs
import proofs.«114674_j31731218383095_2_alg».proof.Proof.KernelValue
import proofs.«114674_j31731218383095_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `1 - exp (-(exp s))` of the same arrays: the kernel by its accumulation over the blocks, the
    reference by its whole-array sums, of arguments that agree. -/
theorem algebraic : Cert.algebraic_KernelIdeal_ReferenceIdeal := fun m ρ m' ρ' _ hagree =>
  ⟨fun c => Cert.RowNorms.result (Cert.KernelIdeal.RowNormsValue.argZ m c) (Cert.KernelIdeal.RowNormsValue.argR m c),
    Cert.KernelIdeal.RowNormsValue.run m ρ,
    (θ_run Cert.ReferenceIdeal.defs _ _).mono
      (fun _ h c => ⟨(h c).1.trans
        (Cert.ReferenceIdeal.RowNormsValue.run_term_eq _ _ _ _ (hagree c).1 (hagree c).2), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
